-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x256x256 : Shape := ⟨4, ![64, 16, 256, 256]⟩
abbrev S4x16 : Shape := ⟨2, ![4, 16]⟩
abbrev S4 : Shape := ⟨1, ![4]⟩
abbrev S16x4 : Shape := ⟨2, ![16, 4]⟩
abbrev S16 : Shape := ⟨1, ![16]⟩
abbrev S_ : Shape := ⟨0, ![]⟩

class Facts : Prop where
  bcast_S_S64x16x256x256 : S_.BroadcastsInDim S64x16x256x256 (![] : Fin 0 → Fin S64x16x256x256.rank)
  reducesTo_S64x16x256x256_S_d0_1_2_3 : S64x16x256x256.ReducesTo [0, 1, 2, 3] S_
  h_S_ : 0 < S_.numel
  bcast_S_S4x16 : S_.BroadcastsInDim S4x16 (![] : Fin 0 → Fin S4x16.rank)
  reducesTo_S4x16_S_d0_1 : S4x16.ReducesTo [0, 1] S_
  bcast_S_S4 : S_.BroadcastsInDim S4 (![] : Fin 0 → Fin S4.rank)
  reducesTo_S4_S_d0 : S4.ReducesTo [0] S_
  bcast_S_S16x4 : S_.BroadcastsInDim S16x4 (![] : Fin 0 → Fin S16x4.rank)
  reducesTo_S16x4_S_d0_1 : S16x4.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S64x16x256x256 .f32) (main_arg1 : FVec F S4x16 .f32) (main_arg2 : FVec F S4 .f32) (main_arg3 : FVec F S16x4 .f32) (main_arg4 : FVec F S16 .f32) : IVec S_ 1 :=
  let main_v0 : FVec F S64x16x256x256 .f32 := Host.absf main_arg0
  let main_cst : FVec F S_ .f32 := constant S_ .f32 0x7F800000#32
  let main_v1 : FVec F S64x16x256x256 .f32 := broadcastInDim S64x16x256x256 ![] bcast_S_S64x16x256x256 main_cst
  let main_v2 : IVec S64x16x256x256 1 := cmpf .olt main_v0 main_v1
  let main_c : IVec S_ 1 := constantI S_ 1 1#1
  let main_v3 : IVec S_ 1 := (fun x v => Host.reduce IntOp.andi x v reducesTo_S64x16x256x256_S_d0_1_2_3 h_S_) main_v2 main_c
  let main_v4 : FVec F S4x16 .f32 := Host.absf main_arg1
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S16x4 .f32 := Host.absf main_arg3
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_arg4 main_v13 main_v16
-- ==== Kernel.lean ====
abbrev S64x16x256x256 : Shape := ⟨4, ![64, 16, 256, 256]⟩
abbrev S4x16 : Shape := ⟨2, ![4, 16]⟩
abbrev S4 : Shape := ⟨1, ![4]⟩
abbrev S16x4 : Shape := ⟨2, ![16, 4]⟩
abbrev S16 : Shape := ⟨1, ![16]⟩
abbrev S1x4 : Shape := ⟨2, ![1, 4]⟩
abbrev S1x16 : Shape := ⟨2, ![1, 16]⟩
abbrev S1x16x256x256 : Shape := ⟨4, ![1, 16, 256, 256]⟩
abbrev S1x16x256 : Shape := ⟨3, ![1, 16, 256]⟩
abbrev S1x1x16 : Shape := ⟨3, ![1, 1, 16]⟩
abbrev S1x4x16 : Shape := ⟨3, ![1, 4, 16]⟩
abbrev S1x1x4 : Shape := ⟨3, ![1, 1, 4]⟩
abbrev S1x16x4 : Shape := ⟨3, ![1, 16, 4]⟩
abbrev S1x16x1x1 : Shape := ⟨4, ![1, 16, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x16x256x256, .f32⟩
  | .hbm, ⟨1, _⟩ => ⟨S4x16, .f32⟩
  | .hbm, ⟨2, _⟩ => ⟨S4, .f32⟩
  | .hbm, ⟨3, _⟩ => ⟨S16x4, .f32⟩
  | .hbm, ⟨4, _⟩ => ⟨S16, .f32⟩
  | .hbm, ⟨5, _⟩ => ⟨S1x4, .f32⟩
  | .hbm, ⟨6, _⟩ => ⟨S1x16, .f32⟩
  | .hbm, ⟨7, _⟩ => ⟨S64x16x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S4x16, .f32⟩
  | .local _ .vmem, ⟨3, _⟩ => ⟨S1x4, .f32⟩
  | .local _ .vmem, ⟨4, _⟩ => ⟨S16x4, .f32⟩
  | .local _ .vmem, ⟨5, _⟩ => ⟨S1x16, .f32⟩
  | .local _ .vmem, ⟨6, _⟩ => ⟨S1x16x256x256, .f32⟩
  | .local _ .vmem, ⟨7, _⟩ => ⟨S1x16x256x256, .f32⟩
  | _, _ => ⟨S64x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4_S1x4 : S4.ShapeCasts S1x4
  shapeCasts_S16_S1x16 : S16.ShapeCasts S1x16
  inb_S1x16x256x256_S1x16x256x256_0_0_0_0 : ∀ a, (![0, 0, 0, 0] : Fin 4 → Nat) a + S1x16x256x256.size a ≤ S1x16x256x256.size a
  h_S1x16x256x256 : 0 < S1x16x256x256.numel
  reduces_S1x16x256x256_S1x16x256 : S1x16x256x256.Reduces [3] S1x16x256
  reduces_S1x16x256_S1x16 : S1x16x256.Reduces [2] S1x16
  inb_S4x16_S4x16_0_0 : ∀ a, (![0, 0] : Fin 2 → Nat) a + S4x16.size a ≤ S4x16.size a
  h_S4x16 : 0 < S4x16.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  shapeCasts_S1x16_S1x1x16 : S1x16.ShapeCasts S1x1x16
  shapeCasts_S4x16_S1x4x16 : S4x16.ShapeCasts S1x4x16
  broadcasts_S1x1x16_S1x4x16 : S1x1x16.Broadcasts S1x4x16
  reduces_S1x4x16_S1x4 : S1x4x16.Reduces [2] S1x4
  inb_S16x4_S16x4_0_0 : ∀ a, (![0, 0] : Fin 2 → Nat) a + S16x4.size a ≤ S16x4.size a
  h_S16x4 : 0 < S16x4.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S1x4_S1x1x4 : S1x4.ShapeCasts S1x1x4
  shapeCasts_S16x4_S1x16x4 : S16x4.ShapeCasts S1x16x4
  broadcasts_S1x1x4_S1x16x4 : S1x1x4.Broadcasts S1x16x4
  reduces_S1x16x4_S1x16 : S1x16x4.Reduces [2] S1x16
  shapeCasts_S1x16_S1x16x1x1 : S1x16.ShapeCasts S1x16x1x1
  broadcasts_S1x16x1x1_S1x16x256x256 : S1x16x1x1.Broadcasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S64x16x256x256.size a
  hwx0_0 : ∀ i : grid0.Coords, EltTy.bits .f32 = 32 ∨ (Rect.block (s := S64x16x256x256) S1x16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x16.size a ≤ S4x16.size a
  hwx0_1 : ∀ i : grid0.Coords, EltTy.bits .f32 = 32 ∨ (Rect.block (s := S4x16) S4x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4.size a ≤ S16x4.size a
  hwx0_3 : ∀ i : grid0.Coords, EltTy.bits .f32 = 32 ∨ (Rect.block (s := S16x4) S16x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x256.size a ≤ S64x16x256x256.size a
  hwx0_5 : ∀ i : grid0.Coords, EltTy.bits .f32 = 32 ∨ (Rect.block (s := S64x16x256x256) S1x16x256x256.size (cc0_transform_5 i) (hinb0_5 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x16x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x16x256x256 : Shape := ⟨4, ![64, 16, 256, 256]⟩
abbrev S4x16 : Shape := ⟨2, ![4, 16]⟩
abbrev S4 : Shape := ⟨1, ![4]⟩
abbrev S16x4 : Shape := ⟨2, ![16, 4]⟩
abbrev S16 : Shape := ⟨1, ![16]⟩
abbrev S_ : Shape := ⟨0, ![]⟩
abbrev S64x16 : Shape := ⟨2, ![64, 16]⟩
abbrev S64x4 : Shape := ⟨2, ![64, 4]⟩
abbrev S1x4 : Shape := ⟨2, ![1, 4]⟩
abbrev S1x16 : Shape := ⟨2, ![1, 16]⟩
abbrev S64x16x1x1 : Shape := ⟨4, ![64, 16, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x16x256x256, .f32⟩
  | .hbm, ⟨1, _⟩ => ⟨S4x16, .f32⟩
  | .hbm, ⟨2, _⟩ => ⟨S4, .f32⟩
  | .hbm, ⟨3, _⟩ => ⟨S16x4, .f32⟩
  | .hbm, ⟨4, _⟩ => ⟨S16, .f32⟩
  | .hbm, ⟨5, _⟩ => ⟨S_, .f32⟩
  | .hbm, ⟨6, _⟩ => ⟨S64x16, .f32⟩
  | .hbm, ⟨7, _⟩ => ⟨S_, .f32⟩
  | .hbm, ⟨8, _⟩ => ⟨S64x16, .f32⟩
  | .hbm, ⟨9, _⟩ => ⟨S64x16, .f32⟩
  | .hbm, ⟨10, _⟩ => ⟨S64x4, .f32⟩
  | .hbm, ⟨11, _⟩ => ⟨S1x4, .f32⟩
  | .hbm, ⟨12, _⟩ => ⟨S64x4, .f32⟩
  | .hbm, ⟨13, _⟩ => ⟨S64x4, .f32⟩
  | .hbm, ⟨14, _⟩ => ⟨S_, .f32⟩
  | .hbm, ⟨15, _⟩ => ⟨S64x4, .f32⟩
  | .hbm, ⟨16, _⟩ => ⟨S64x4, .f32⟩
  | .hbm, ⟨17, _⟩ => ⟨S64x16, .f32⟩
  | .hbm, ⟨18, _⟩ => ⟨S1x16, .f32⟩
  | .hbm, ⟨19, _⟩ => ⟨S64x16, .f32⟩
  | .hbm, ⟨20, _⟩ => ⟨S64x16, .f32⟩
  | .hbm, ⟨21, _⟩ => ⟨S64x16, .f32⟩
  | .hbm, ⟨22, _⟩ => ⟨S64x16, .f32⟩
  | .hbm, ⟨23, _⟩ => ⟨S_, .f32⟩
  | .hbm, ⟨24, _⟩ => ⟨S64x16, .f32⟩
  | .hbm, ⟨25, _⟩ => ⟨S64x16, .f32⟩
  | .hbm, ⟨26, _⟩ => ⟨S_, .f32⟩
  | .hbm, ⟨27, _⟩ => ⟨S64x16, .f32⟩
  | .hbm, ⟨28, _⟩ => ⟨S64x16, .f32⟩
  | .hbm, ⟨29, _⟩ => ⟨S64x16, .i32⟩
  | .hbm, ⟨30, _⟩ => ⟨S64x16, .f32⟩
  | .hbm, ⟨31, _⟩ => ⟨S64x16x1x1, .f32⟩
  | .hbm, ⟨32, _⟩ => ⟨S64x16x256x256, .f32⟩
  | .hbm, ⟨33, _⟩ => ⟨S64x16x256x256, .f32⟩
  | _, _ => ⟨S64x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x16x256x256_S64x16_d2_3 : S64x16x256x256.ReducesTo [2, 3] S64x16
  h_S_ : 0 < S_.numel
  bcast_S_S64x16 : S_.BroadcastsInDim S64x16 (![] : Fin 0 → Fin S64x16.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S64x16_S64x16x1x1_0_1 : S64x16.BroadcastsInDim S64x16x1x1 (![0, 1] : Fin 2 → Fin S64x16x1x1.rank)
  bcast_S64x16x1x1_S64x16x256x256_0_1_2_3 : S64x16x1x1.BroadcastsInDim S64x16x256x256 (![0, 1, 2, 3] : Fin 4 → Fin S64x16x256x256.rank)
  dot_S64x16_S4x16_S64x4_1_1_0_0_n_n_wf : DotDims.WF S64x16 S4x16 S64x4 [1] [1] [0] [0] [] []
  dot_S64x4_S16x4_S64x16_1_1_0_0_n_n_wf : DotDims.WF S64x4 S16x4 S64x16 [1] [1] [0] [0] [] []

variable [Facts₀]

def dot_S64x16_S4x16_S64x4_1_1_0_0_n_n : DotDims S64x16 S4x16 S64x4 where
  lhsContracting := [1]
  rhsContracting := [1]
  lhsNonContracting := [0]
  rhsNonContracting := [0]
  lhsBatch := []
  rhsBatch := []
  wf := dot_S64x16_S4x16_S64x4_1_1_0_0_n_n_wf
def dot_S64x4_S16x4_S64x16_1_1_0_0_n_n : DotDims S64x4 S16x4 S64x16 where
  lhsContracting := [1]
  rhsContracting := [1]
  lhsNonContracting := [0]
  rhsNonContracting := [0]
  lhsBatch := []
  rhsBatch := []
  wf := dot_S64x4_S16x4_S64x16_1_1_0_0_n_n_wf

class Facts : Prop extends Facts₀ where

variable [Facts]
-- ==== Proof.Spec.lean ====
/-
  The function both programs compute, on the extended reals.

  The input x is a [64, 16, 256, 256] array: 64 samples, 16 channels, a 256 × 256 plane each. For a sample b:
    pool b h    = (Σ_r Σ_w x[b, h, r, w]) · 2⁻¹⁶              the mean of channel h's plane (256 · 256 = 2¹⁶ entries)
    hidden b c  = max (Σ_k pool b k · W1[c, k] + b1[c]) 0      four hidden units
    pre b h     = Σ_c hidden b c · W2[h, c] + b2[h]            one number per channel
    gate z      = the integer part of 1 / (1 + e^(−z)), as a float
    G[b, h, r, w] = x[b, h, r, w] · gate (pre b h)
  One program forms the mean as the plane's sum times the constant 2⁻¹⁶ and the other as the sum divided by 65536;
  on the extended reals a quotient by a nonzero real IS the product with its reciprocal, at the infinities too
  (`mean_eq`), so no input needs to be finite for the two to agree. The two also take the plane's sum in different
  groupings (rows then columns, or all 65536 entries at once); a finite sum in a commutative monoid does not
  depend on the grouping, and that is proved where each program's sum is read.
-/
import Idealize.ShloMosaic.PureOps.Ideal
import Idealize.ShloMosaic.Lib.ValueIdx

noncomputable section

namespace Cert.SeGate

open Idealize.ShloMosaic Idealize.ShloMosaic.ValueIdx

/-- The shapes of the five arguments. -/
abbrev SX : Shape := ⟨4, ![64, 16, 256, 256]⟩
abbrev SW1 : Shape := ⟨2, ![4, 16]⟩
abbrev SB1 : Shape := ⟨1, ![4]⟩
abbrev SW2 : Shape := ⟨2, ![16, 4]⟩
abbrev SB2 : Shape := ⟨1, ![16]⟩

/-- The word 0x37800000 is the float 2⁻¹⁶ = 1/65536, exactly. -/
theorem ofBits_inv65536 : Ideal.ofBits .f32 0x37800000#32 = ((1 / 65536 : ℝ) : EReal) := by
  simp [Ideal.ofBits, Ideal.ieee, -EReal.coe_mul]; norm_num

/-- The word 0x47800000 is the float 2¹⁶ = 65536. -/
theorem ofBits_65536 : Ideal.ofBits .f32 0x47800000#32 = ((65536 : ℝ) : EReal) := by
  simp [Ideal.ofBits, Ideal.ieee, -EReal.coe_mul]; norm_num

/-- The word 0x3F800000 is the float 1. -/
theorem ofBits_one : Ideal.ofBits .f32 0x3F800000#32 = 1 := by
  simp [Ideal.ofBits, Ideal.ieee, -EReal.coe_mul]; norm_num

/-- A sum divided by 65536 is the sum times 2⁻¹⁶, for every extended real: division by a nonzero real is the product
    with its reciprocal. -/
theorem mean_eq (s : EReal) :
    Ideal.div s (Ideal.ofBits .f32 0x47800000#32) = s * Ideal.ofBits .f32 0x37800000#32 := by
  rw [ofBits_65536, ofBits_inv65536, Ideal.div_coe (by norm_num : (65536 : ℝ) ≠ 0)]

/-- The mean of channel `h`'s plane of sample `b`. -/
def pool (x : SX.Idx → EReal) (b : Fin 64) (h : Fin 16) : EReal :=
  (∑ r : Fin 256, ∑ w : Fin 256, x (ix4 b h r w)) * Ideal.ofBits .f32 0x37800000#32

/-- Hidden unit `c` of sample `b`: the pooled channels against row `c` of `W1`, plus the bias, cut off at 0. -/
def hidden (x : SX.Idx → EReal) (W1 : SW1.Idx → EReal) (b1 : SB1.Idx → EReal) (b : Fin 64) (c : Fin 4) : EReal :=
  max ((∑ k : Fin 16, pool x b k * W1 (ix2 c k)) + b1 (ix1 c)) 0

/-- What the gate of channel `h` of sample `b` is taken of: the hidden units against row `h` of `W2`, plus the bias. -/
def pre (x : SX.Idx → EReal) (W1 : SW1.Idx → EReal) (b1 : SB1.Idx → EReal) (W2 : SW2.Idx → EReal) (b2 : SB2.Idx → EReal)
    (b : Fin 64) (h : Fin 16) : EReal :=
  (∑ c : Fin 4, hidden x W1 b1 b c * W2 (ix2 h c)) + b2 (ix1 h)

/-- The logistic function 1 / (1 + e^(−z)), converted to a 32-bit integer and back to a float. -/
def gate (z : EReal) : EReal :=
  FloatOps.sitofp (F := Ideal) .f32 (FloatOps.fptosi (F := Ideal) (φ := .f32) 32 (Ideal.logistic z))

/-- The result array: every entry of the input times its sample's and channel's gate. -/
def G (x : SX.Idx → EReal) (W1 : SW1.Idx → EReal) (b1 : SB1.Idx → EReal) (W2 : SW2.Idx → EReal) (b2 : SB2.Idx → EReal) :
    SX.Idx → EReal :=
  fun i => x i * gate (pre x W1 b1 W2 b2 (i 0) (i 1))

theorem G_ix4 (x : SX.Idx → EReal) (W1 : SW1.Idx → EReal) (b1 : SB1.Idx → EReal) (W2 : SW2.Idx → EReal) (b2 : SB2.Idx → EReal)
    (b : Fin 64) (h : Fin 16) (r w : Fin 256) :
    G x W1 b1 W2 b2 (ix4 b h r w) = x (ix4 b h r w) * gate (pre x W1 b1 W2 b2 b h) := rfl

end Cert.SeGate

end
-- ==== Proof.LibPlaneSum.lean ====
/-
  The sum of a plane of a rank-4 array, in the two spellings programs use, on the extended reals.

  For an array x of shape [n0, n1, n2, n3] and a fixed (b, h), the entries x[b, h, r, w] form an n2 × n3 plane.
  * A host reduction over the axes 2 and 3 adds, at (b, h), the initial value and every entry whose first two
    coordinates are (b, h). Those entries are exactly the x[b, h, r, w], one for each pair (r, w), so the sum is
    Σ_r Σ_w x[b, h, r, w] (`sum_filter_drop_plane`, for any commutative monoid; `hostReduceAdd_plane`).
  * A vector unit reduces one axis at a time: first axis 3 (each row's sum), then axis 2 (the sum of the rows'
    sums). For an array with a leading unit axis, [1, C, R, W], that is Σ_r Σ_w x[0, k, r, w] term by term
    (`multiReduction_plane`).
  Neither statement needs an entry to be finite: only the order and grouping of a finite sum are used.
-/
import Idealize.ShloMosaic.PureOps.Ideal.Laws
import Idealize.ShloMosaic.Lib.ValueIdx
import Idealize.ShloMosaic.Lib.IdealHost

noncomputable section

namespace Cert.Lib.PlaneSum

open Idealize.ShloMosaic Idealize.ShloMosaic.ValueIdx

section Host

variable {α : Type} [AddCommMonoid α] {n0 n1 n2 n3 : Nat}

/-- Dropping the axes 2 and 3 keeps coordinate 0 … -/
theorem drop_val0 (h' : (⟨4, ![n0, n1, n2, n3]⟩ : Shape).ReducesTo [2, 3] ⟨2, ![n0, n1]⟩)
    (i : (⟨4, ![n0, n1, n2, n3]⟩ : Shape).Idx) : (h'.drop i 0).val = (i 0).val := rfl

/-- … and coordinate 1. -/
theorem drop_val1 (h' : (⟨4, ![n0, n1, n2, n3]⟩ : Shape).ReducesTo [2, 3] ⟨2, ![n0, n1]⟩)
    (i : (⟨4, ![n0, n1, n2, n3]⟩ : Shape).Idx) : (h'.drop i 1).val = (i 1).val := rfl

/-- The indices of a rank-4 array whose first two coordinates are (b, h), summed, are the plane's entries summed row by
    row: the map i ↦ (i 2, i 3) is a bijection from those indices onto all pairs (r, w), with inverse
    (r, w) ↦ (b, h, r, w). -/
theorem sum_filter_drop_plane (h' : (⟨4, ![n0, n1, n2, n3]⟩ : Shape).ReducesTo [2, 3] ⟨2, ![n0, n1]⟩)
    (x : (⟨4, ![n0, n1, n2, n3]⟩ : Shape).Idx → α) (b : Fin n0) (h : Fin n1) :
    ∑ i ∈ Finset.univ.filter (fun i => h'.drop i = ix2 b h), x i = ∑ r : Fin n2, ∑ w : Fin n3, x (ix4 b h r w) := by
  have key : ∀ i ∈ Finset.univ.filter (fun i => h'.drop i = ix2 b h), ix4 b h (i 2 : Fin n2) (i 3 : Fin n3) = i := by
    intro i hi
    have hj := (Finset.mem_filter.1 hi).2
    have e0 : (i 0).val = b.val :=
      (drop_val0 h' i).symm.trans (congrArg (fun j : (⟨2, ![n0, n1]⟩ : Shape).Idx => (j 0).val) hj)
    have e1 : (i 1).val = h.val :=
      (drop_val1 h' i).symm.trans (congrArg (fun j : (⟨2, ![n0, n1]⟩ : Shape).Idx => (j 1).val) hj)
    funext a; apply Fin.ext
    match a with
    | ⟨0, _⟩ => exact e0.symm
    | ⟨1, _⟩ => exact e1.symm
    | ⟨2, _⟩ => rfl
    | ⟨3, _⟩ => rfl
  rw [← Fintype.sum_prod_type' (f := fun (r : Fin n2) (w : Fin n3) => x (ix4 b h r w))]
  refine Finset.sum_nbij' (fun i => ((i 2 : Fin n2), (i 3 : Fin n3))) (fun p => ix4 b h p.1 p.2) ?_ ?_ ?_ ?_ ?_
  · intro i _; exact Finset.mem_univ _
  · intro p _
    refine Finset.mem_filter.2 ⟨Finset.mem_univ _, funext fun a => Fin.ext ?_⟩
    match a with
    | ⟨0, _⟩ => exact drop_val0 h' _
    | ⟨1, _⟩ => exact drop_val1 h' _
  · intro i hi; exact key i hi
  · intro p _; rfl
  · intro i hi; exact congrArg x (key i hi).symm

end Host

variable {φ : FTy}

/-- A host float sum over the axes 2 and 3, read at (b, h): the initial value plus the plane's entries, row by row. -/
theorem hostReduceAdd_plane {n0 n1 n2 n3 : Nat} {u : Shape} (x : FVec Ideal ⟨4, ![n0, n1, n2, n3]⟩ φ) (init : u.Idx → Ideal φ)
    (h' : (⟨4, ![n0, n1, n2, n3]⟩ : Shape).ReducesTo [2, 3] ⟨2, ![n0, n1]⟩) (hu : 0 < u.numel) (b : Fin n0) (h : Fin n1) :
    Host.reduceAdd (F := Ideal) x init h' hu (ix2 b h)
      = init (Shape.Idx.first hu) + ∑ r : Fin n2, ∑ w : Fin n3, x (ix4 b h r w) := by
  rw [hostReduceAdd_apply]
  unfold Ideal.hostReduceAdd
  exact congrArg (init (Shape.Idx.first hu) + ·) (sum_filter_drop_plane h' x b h)

/-- A vector unit's sum over axis 3 and then over axis 2 of a [1, C, R, W] array, read at (0, k): the plane's entries
    row by row. -/
theorem multiReduction_plane {C R W : Nat} (P : FVec Ideal ⟨4, ![1, C, R, W]⟩ φ) (acc1 acc2 : BitVec φ.bits)
    (h1 : (⟨4, ![1, C, R, W]⟩ : Shape).Reduces [3] ⟨3, ![1, C, R]⟩) (h2 : (⟨3, ![1, C, R]⟩ : Shape).Reduces [2] ⟨2, ![1, C]⟩)
    (hφ : FKind.Formats φ) (hacc1 : acc1 = FKind.add.neutral φ hφ) (hacc2 : acc2 = FKind.add.neutral φ hφ) (k : Fin C) :
    multiReduction .add [2] ⟨2, ![1, C]⟩ (multiReduction .add [3] ⟨3, ![1, C, R]⟩ P acc1 h1 hφ hacc1) acc2 h2 hφ hacc2
        (ix2 (0 : Fin 1) k)
      = ∑ r : Fin R, ∑ w : Fin W, P (ix4 (0 : Fin 1) k r w) := by
  refine (Ideal.multiReduction_add_single _ acc2 h2 hφ hacc2 (ix2 (0 : Fin 1) k)).trans ?_
  refine Finset.sum_congr rfl fun r _ => ?_
  refine (Ideal.multiReduction_add_single P acc1 h1 hφ hacc1 _).trans ?_
  refine Finset.sum_congr rfl fun w _ => ?_
  refine congrArg P (funext fun a => Fin.ext ?_)
  match a with
  | ⟨0, _⟩ => rfl
  | ⟨1, _⟩ => rfl
  | ⟨2, _⟩ => rfl
  | ⟨3, _⟩ => rfl

end Cert.Lib.PlaneSum

end
-- ==== Proof.LibRowDot.lean ====
/-
  A row times a matrix, spelt without a matrix product, on the extended reals.

  A vector unit can form Σ_k u[k] · M[n, k] for every row n of an [N, K] matrix M and a [1, K] row u like this: view u as
  [1, 1, K] and repeat it N times to [1, N, K]; view M as [1, N, K]; multiply entry by entry; add up the last axis.
  At (0, n) the last step is the sum over k of the products at (0, n, k); the repeated row is u[0, k] there and the
  viewed matrix is M[n, k]. So the result at (0, n) is Σ_k u[0, k] · M[n, k] (`rowDot`), whatever the entries are.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowDot

open Idealize.ShloMosaic Idealize.ShloMosaic.ValueIdx

variable {φ : FTy}

/-- A [1, 1, K] array repeated along its middle axis to [1, N, K], read at (0, n, k): the array at (0, 0, k). -/
theorem broadcastTo_11K_1NK_apply {α : Type} {N K : Nat} (v : (⟨3, ![1, 1, K]⟩ : Shape).Idx → α)
    (hb : (⟨3, ![1, 1, K]⟩ : Shape).Broadcasts ⟨3, ![1, N, K]⟩) (n : Fin N) (k : Fin K) :
    broadcastTo ⟨3, ![1, N, K]⟩ v hb (ix3 (0 : Fin 1) n k) = v (ix3 (0 : Fin 1) (0 : Fin 1) k) := by
  refine broadcastTo_apply v hb (ix3 (0 : Fin 1) n k) (ix3 (0 : Fin 1) (0 : Fin 1) k) fun ax => ?_
  match ax with
  | ⟨0, _⟩ => rfl
  | ⟨1, _⟩ => rfl
  | ⟨2, _⟩ =>
    show k.val = if K = 1 then 0 else k.val
    split
    · have := k.isLt; omega
    · rfl

/-- The row-times-matrix product as repeat, multiply, add up the last axis: at (0, n) it is Σ_k u[0, k] · M[n, k]. -/
theorem rowDot {N K : Nat} (u : FVec Ideal ⟨2, ![1, K]⟩ φ) (M : FVec Ideal ⟨2, ![N, K]⟩ φ) (acc : BitVec φ.bits)
    (hc1 : (⟨2, ![1, K]⟩ : Shape).ShapeCasts ⟨3, ![1, 1, K]⟩) (hb : (⟨3, ![1, 1, K]⟩ : Shape).Broadcasts ⟨3, ![1, N, K]⟩)
    (hc2 : (⟨2, ![N, K]⟩ : Shape).ShapeCasts ⟨3, ![1, N, K]⟩) (hr : (⟨3, ![1, N, K]⟩ : Shape).Reduces [2] ⟨2, ![1, N]⟩)
    (hφ : FKind.Formats φ) (hacc : acc = FKind.add.neutral φ hφ) (n : Fin N) :
    multiReduction .add [2] ⟨2, ![1, N]⟩
        (mulf (broadcastTo ⟨3, ![1, N, K]⟩ (shapeCast ⟨3, ![1, 1, K]⟩ u hc1) hb) (shapeCast ⟨3, ![1, N, K]⟩ M hc2))
        acc hr hφ hacc (ix2 (0 : Fin 1) n)
      = ∑ k : Fin K, u (ix2 (0 : Fin 1) k) * M (ix2 n k) := by
  refine (Ideal.multiReduction_add_single _ acc hr hφ hacc (ix2 (0 : Fin 1) n)).trans ?_
  refine Finset.sum_congr rfl fun k _ => ?_
  have e : hr.lift (ix2 (0 : Fin 1) n) k = ix3 (0 : Fin 1) n (k : Fin K) :=
    funext fun a => Fin.ext (by
      match a with
      | ⟨0, _⟩ => rfl
      | ⟨1, _⟩ => rfl
      | ⟨2, _⟩ => rfl)
  rw [e]
  refine congrArg₂ (· * ·) ?_ ?_
  · exact (broadcastTo_11K_1NK_apply _ hb n k).trans (shapeCast_ab_1ab_apply u hc1 0 0 k)
  · exact shapeCast_ab_1ab_apply M hc2 0 n k

end Cert.Lib.RowDot

end
-- ==== Proof.KernelValue.lean ====
/-
  One block of the kernel's result is `Cert.SeGate.G` on one sample.

  At a grid point the body holds a [1, 16, 256, 256] block P0 of the input (one sample), the whole of W1 and W2, and the
  two bias vectors as [1, 4] and [1, 16] rows P2, P4. What it stores is, entry by entry,
      P0[0, h, r, w] · gate (preV[0, h] + P4[0, h]),
  where the rows are computed on the vector unit:
    * gapV[0, k]  = (the sum of the plane P0[0, k, ·, ·], rows first) · 2⁻¹⁶
    * hidV[0, c]  = max (Σ_k gapV[0, k] · W1[c, k] + P2[0, c]) 0      — a repeat, a product and a sum along the last axis
    * preV[0, h]  = Σ_c hidV[0, c] · W2[h, c]                          — the same again
  If P0 is sample b of x, the matrices are W1 and W2, and P2, P4 are b1, b2 laid out as rows, that is `G x W1 b1 W2 b2` at
  (b, h, r, w) (`block_apply`).
-/
import proofs.«110102_j48490180772307_2_alg».proof.Proof.KernelValueP
import proofs.«110102_j48490180772307_2_alg».proof.Proof.Spec
import proofs.«110102_j48490180772307_2_alg».proof.Proof.LibPlaneSum
import proofs.«110102_j48490180772307_2_alg».proof.Proof.LibRowDot

noncomputable section

namespace Cert.KernelIdeal.BlockValue

open Cert.KernelIdeal Cert.KernelIdeal.Gen Idealize.ShloMosaic Idealize.ShloMosaic.ValueIdx
open Cert.SeGate

variable (P0 : Vec Ideal S1x16x256x256 .f32) (P1 : Vec Ideal S4x16 .f32) (P2 : Vec Ideal S1x4 .f32)
  (P3 : Vec Ideal S16x4 .f32) (P4 : Vec Ideal S1x16 .f32)

/-- The pooled row: each channel's plane summed (rows, then the rows' sums) and scaled by 2⁻¹⁶. -/
abbrev gapV : FVec Ideal S1x16 .f32 :=
  mulf (multiReduction (F := Ideal) .add [2] S1x16 (multiReduction (F := Ideal) .add [3] S1x16x256 P0 0x00000000#32 reduces_S1x16x256x256_S1x16x256 (.inl rfl) rfl) 0x00000000#32 reduces_S1x16x256_S1x16 (.inl rfl) rfl) (broadcast S1x16 (Scalar.ofBits (F := Ideal) .f32 0x37800000#32))

/-- The hidden row. -/
abbrev hidV : FVec Ideal S1x4 .f32 :=
  maximumf (addf (multiReduction (F := Ideal) .add [2] S1x4 (mulf (broadcastTo S1x4x16 (shapeCast S1x1x16 (gapV P0) shapeCasts_S1x16_S1x1x16) broadcasts_S1x1x16_S1x4x16) (shapeCast S1x4x16 P1 shapeCasts_S4x16_S1x4x16)) 0x00000000#32 reduces_S1x4x16_S1x4 (.inl rfl) rfl) (shapeCast S1x4 P2 shapeCasts_S1x4_S1x4)) (broadcast S1x4 (Scalar.ofBits (F := Ideal) .f32 0x00000000#32))

/-- The row the gate is taken of, before the second bias. -/
abbrev preV : FVec Ideal S1x16 .f32 :=
  multiReduction (F := Ideal) .add [2] S1x16 (mulf (broadcastTo S1x16x4 (shapeCast S1x1x4 (hidV P0 P1 P2) shapeCasts_S1x4_S1x1x4) broadcasts_S1x1x4_S1x16x4) (shapeCast S1x16x4 P3 shapeCasts_S16x4_S1x16x4)) 0x00000000#32 reduces_S1x16x4_S1x16 (.inl rfl) rfl

/-- The stored block is the loaded block times the gate of the last row plus the bias row. -/
theorem E5_eq (y : S1x16x256x256.Idx) :
    Cert.KernelIdeal.ValueP.E5 (F := Ideal) P0 P1 P2 P3 P4 y
      = P0 (Cert.KernelIdeal.ValueP.ix5_0 y)
        * gate (preV P0 P1 P2 P3 (Cert.KernelIdeal.ValueP.ix5_1 y) + P4 (Cert.KernelIdeal.ValueP.ix5_2 y)) := rfl

theorem gapV_apply (k : Fin 16) :
    gapV P0 (ix2 (0 : Fin 1) k)
      = (∑ r : Fin 256, ∑ w : Fin 256, P0 (ix4 (0 : Fin 1) k r w)) * Ideal.ofBits .f32 0x37800000#32 :=
  congrArg (· * Ideal.ofBits .f32 0x37800000#32)
    (Cert.Lib.PlaneSum.multiReduction_plane (C := 16) (R := 256) (W := 256) P0 0x00000000#32 0x00000000#32
      reduces_S1x16x256x256_S1x16x256 reduces_S1x16x256_S1x16 (.inl rfl) rfl rfl k)

theorem hidV_apply (c : Fin 4) :
    hidV P0 P1 P2 (ix2 (0 : Fin 1) c)
      = max ((∑ k : Fin 16, gapV P0 (ix2 (0 : Fin 1) k) * P1 (ix2 c k)) + P2 (ix2 (0 : Fin 1) c)) 0 := by
  show max (_ + (shapeCast S1x4 P2 shapeCasts_S1x4_S1x4) (ix2 (0 : Fin 1) c)) (Ideal.ofBits .f32 0x00000000#32) = _
  rw [shapeCast_self, Ideal.ofBits_zero_f32]
  exact congrArg (fun z => max (z + P2 (ix2 (0 : Fin 1) c)) 0)
    (Cert.Lib.RowDot.rowDot (N := 4) (K := 16) (gapV P0) P1 0x00000000#32 shapeCasts_S1x16_S1x1x16
      broadcasts_S1x1x16_S1x4x16 shapeCasts_S4x16_S1x4x16 reduces_S1x4x16_S1x4 (.inl rfl) rfl c)

theorem preV_apply (h : Fin 16) :
    preV P0 P1 P2 P3 (ix2 (0 : Fin 1) h) = ∑ c : Fin 4, hidV P0 P1 P2 (ix2 (0 : Fin 1) c) * P3 (ix2 h c) :=
  Cert.Lib.RowDot.rowDot (N := 16) (K := 4) (hidV P0 P1 P2) P3 0x00000000#32 shapeCasts_S1x4_S1x1x4
    broadcasts_S1x1x4_S1x16x4 shapeCasts_S16x4_S1x16x4 reduces_S1x16x4_S1x16 (.inl rfl) rfl h

/-- The block the body stores, when its loads are sample `b` of `x`, the two matrices, and the biases as rows, is `G` on
    that sample. -/
theorem block_apply (x : FVec Ideal SX .f32) (W1 : FVec Ideal SW1 .f32) (b1 : FVec Ideal SB1 .f32) (W2 : FVec Ideal SW2 .f32)
    (b2 : FVec Ideal SB2 .f32) (b : Fin 64)
    (h0 : ∀ (k : Fin 16) (r w : Fin 256), P0 (ix4 (0 : Fin 1) k r w) = x (ix4 b k r w))
    (h1 : P1 = W1)
    (h2 : ∀ c : Fin 4, P2 (ix2 (0 : Fin 1) c) = b1 (ix1 c))
    (h3 : P3 = W2)
    (h4 : ∀ h : Fin 16, P4 (ix2 (0 : Fin 1) h) = b2 (ix1 h))
    (h : Fin 16) (r w : Fin 256) :
    Cert.KernelIdeal.ValueP.E5 (F := Ideal) P0 P1 P2 P3 P4 (ix4 (0 : Fin 1) h r w) = G x W1 b1 W2 b2 (ix4 b h r w) := by
  subst h1 h3
  have e0 : Cert.KernelIdeal.ValueP.ix5_0 (ix4 (0 : Fin 1) h r w) = ix4 (0 : Fin 1) h r w :=
    funext fun a => Fin.ext (by match a with | ⟨0, _⟩ => rfl | ⟨1, _⟩ => rfl | ⟨2, _⟩ => rfl | ⟨3, _⟩ => rfl)
  have e1 : Cert.KernelIdeal.ValueP.ix5_1 (ix4 (0 : Fin 1) h r w) = ix2 (0 : Fin 1) h :=
    funext fun a => Fin.ext (by match a with | ⟨0, _⟩ => rfl | ⟨1, _⟩ => rfl)
  have e2 : Cert.KernelIdeal.ValueP.ix5_2 (ix4 (0 : Fin 1) h r w) = ix2 (0 : Fin 1) h :=
    funext fun a => Fin.ext (by match a with | ⟨0, _⟩ => rfl | ⟨1, _⟩ => rfl)
  have hpool : ∀ k : Fin 16, gapV P0 (ix2 (0 : Fin 1) k) = pool x b k := fun k => by
    rw [gapV_apply]
    simp only [h0]
    rfl
  have hhid : ∀ c : Fin 4, hidV P0 P1 P2 (ix2 (0 : Fin 1) c) = hidden x P1 b1 b c := fun c => by
    rw [hidV_apply, h2]
    simp only [hpool]
    rfl
  rw [E5_eq, e0, e1, e2, h0, h4, preV_apply, G_ix4]
  simp only [hhid]
  rfl

end Cert.KernelIdeal.BlockValue

end
-- ==== Proof.KernelRun.lean ====
/-
  The kernel's result array is `Cert.SeGate.G` of its arguments.

  The grid has 64 points; point t works on sample t. Its input block is x[t, ·, ·, ·], the weight windows are the whole
  matrices at every point, and the two bias windows are b1 and b2 reshaped on the host to [1, 4] and [1, 16] before the
  launch (so entry (0, j) of the window is entry j of the vector). With these loads the block the body leaves is G on
  sample t (`block_apply`), and the point writes it back to rows x[t, ·, ·, ·] of the result. The 64 blocks are the 64
  samples: the block that holds index i is the one of point i₀. So the whole array ends at G.
-/
import proofs.«110102_j48490180772307_2_alg».proof.Proof.KernelValue
import Idealize.ShloMosaic.Lib.Pipeline.Value
import Idealize.ShloMosaic.Lib.ValueLayout
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Cert.SeGate
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the input and the output window are at sample t, every other window at its one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_5.index t (0 : Fin 4) = t.val ∧ win0_5.index t (1 : Fin 4) = 0 ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Grid point t as a sample number. -/
abbrev sample (t : Fin cfg0.N) : Fin 64 := ⟨t.val, by have := t.isLt; have hN : cfg0.N = 64 := N_0; omega⟩

/-- The result the kernel is to leave on core c. -/
abbrev result (c : Dev nD) : S64x16x256x256.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-! ## The windows' blocks at a point -/

/-- The input block at point t is sample t of the input. -/
theorem iblk0_apply (c : Dev nD) (t : Fin cfg0.N) (k : Fin 16) (r w : Fin 256) :
    (iblk m c 0 t : Vec Ideal S1x16x256x256 .f32) (ix4 (0 : Fin 1) k r w)
      = (m ((c : Thread nD τ).loc main_arg0) : S64x16x256x256.Idx → EReal) (ix4 (sample t) k r w) := by
  obtain ⟨e0, e1, e2, e3, -⟩ := idx_facts t
  unfold iblk
  rw [View.read_apply]
  show V m c main_arg0 _ = _
  rw [V_main_arg0]
  congr 1
  funext a; apply Fin.ext
  match a with
  | ⟨0, _⟩ => show win0_0.index t (0 : Fin 4) * 1 + 1 * 0 = t.val; omega
  | ⟨1, _⟩ => show win0_0.index t (1 : Fin 4) * 16 + 1 * k.val = k.val; omega
  | ⟨2, _⟩ => show win0_0.index t (2 : Fin 4) * 256 + 1 * r.val = r.val; omega
  | ⟨3, _⟩ => show win0_0.index t (3 : Fin 4) * 256 + 1 * w.val = w.val; omega

/-- The first weight window is the whole of W1 at every point. -/
theorem iblk1_eq (c : Dev nD) (t : Fin cfg0.N) :
    (iblk m c 1 t : Vec Ideal S4x16 .f32) = (m ((c : Thread nD τ).loc main_arg1) : S4x16.Idx → EReal) := by
  obtain ⟨-, -, -, -, -, -, -, -, e0, e1, -⟩ := idx_facts t
  funext y
  unfold iblk
  rw [View.read_apply]
  show V m c main_arg1 _ = _
  rw [V_main_arg1]
  congr 1
  funext a; apply Fin.ext
  match a with
  | ⟨0, _⟩ => show win0_1.index t (0 : Fin 2) * 4 + 1 * (y 0).val = (y 0).val; omega
  | ⟨1, _⟩ => show win0_1.index t (1 : Fin 2) * 16 + 1 * (y 1).val = (y 1).val; omega

/-- The second weight window is the whole of W2 at every point. -/
theorem iblk3_eq (c : Dev nD) (t : Fin cfg0.N) :
    (iblk m c 3 t : Vec Ideal S16x4 .f32) = (m ((c : Thread nD τ).loc main_arg3) : S16x4.Idx → EReal) := by
  obtain ⟨-, -, -, -, -, -, -, -, -, -, -, -, e0, e1, -⟩ := idx_facts t
  funext y
  unfold iblk
  rw [View.read_apply]
  show V m c main_arg3 _ = _
  rw [V_main_arg3]
  congr 1
  funext a; apply Fin.ext
  match a with
  | ⟨0, _⟩ => show win0_3.index t (0 : Fin 2) * 16 + 1 * (y 0).val = (y 0).val; omega
  | ⟨1, _⟩ => show win0_3.index t (1 : Fin 2) * 4 + 1 * (y 1).val = (y 1).val; omega

/-- Before the launch the host reshapes b1 to one row of four … -/
theorem V_bias1 (c : Dev nD) :
    (V m c main_v0 : S1x4.Idx → EReal) = shapeCast S1x4 (m ((c : Thread nD τ).loc main_arg2)) shapeCasts_S4_S1x4 := by
  dsimp only [Gen.V, Gen.hostOps0]; after_results; rfl

/-- … and b2 to one row of sixteen. -/
theorem V_bias2 (c : Dev nD) :
    (V m c main_v1 : S1x16.Idx → EReal) = shapeCast S1x16 (m ((c : Thread nD τ).loc main_arg4)) shapeCasts_S16_S1x16 := by
  dsimp only [Gen.V, Gen.hostOps0]; after_results; rfl

/-- The first bias window holds b1 as a row. -/
theorem iblk2_apply (c : Dev nD) (t : Fin cfg0.N) (j : Fin 4) :
    (iblk m c 2 t : Vec Ideal S1x4 .f32) (ix2 (0 : Fin 1) j) = (m ((c : Thread nD τ).loc main_arg2) : S4.Idx → EReal) (ix1 j) := by
  obtain ⟨-, -, -, -, -, -, -, -, -, -, e0, e1, -⟩ := idx_facts t
  unfold iblk
  rw [View.read_apply]
  show V m c main_v0 _ = _
  rw [V_bias1]
  refine Eq.trans (congrArg _ (funext fun a => Fin.ext ?_)) (shapeCast_a_1a_apply _ shapeCasts_S4_S1x4 (0 : Fin 1) j)
  match a with
  | ⟨0, _⟩ => show win0_2.index t (0 : Fin 2) * 1 + 1 * 0 = 0; omega
  | ⟨1, _⟩ => show win0_2.index t (1 : Fin 2) * 4 + 1 * j.val = j.val; omega

/-- The second bias window holds b2 as a row. -/
theorem iblk4_apply (c : Dev nD) (t : Fin cfg0.N) (j : Fin 16) :
    (iblk m c 4 t : Vec Ideal S1x16 .f32) (ix2 (0 : Fin 1) j) = (m ((c : Thread nD τ).loc main_arg4) : S16.Idx → EReal) (ix1 j) := by
  obtain ⟨-, -, -, -, -, -, -, -, -, -, -, -, -, -, e0, e1⟩ := idx_facts t
  unfold iblk
  rw [View.read_apply]
  show V m c main_v1 _ = _
  rw [V_bias2]
  refine Eq.trans (congrArg _ (funext fun a => Fin.ext ?_)) (shapeCast_a_1a_apply _ shapeCasts_S16_S1x16 (0 : Fin 1) j)
  match a with
  | ⟨0, _⟩ => show win0_4.index t (0 : Fin 2) * 1 + 1 * 0 = 0; omega
  | ⟨1, _⟩ => show win0_4.index t (1 : Fin 2) * 16 + 1 * j.val = j.val; omega

/-! ## What a point writes back, the cover, the array -/

/-- What point t writes back is block t of the result: G on sample t. -/
theorem flushed_eq (c : Dev nD) (t : Fin cfg0.N) :
    (dats m 0 c).flushed 5 t = ((cfg0.win 5).blk t).view.read (Elt Ideal) (result m c) := by
  obtain ⟨-, -, -, -, e0, e1, e2, e3, -⟩ := idx_facts t
  rw [Cert.KernelIdeal.ValueP.flushed5]
  unfold out0_5
  simp only [View.ld_unit_zero (S := S1x16x256x256) hz4, View.ld_unit_zero (S := S4x16) hz2, View.ld_unit_zero (S := S1x4) hz2,
    View.ld_unit_zero (S := S16x4) hz2, View.ld_unit_zero (S := S1x16) hz2]
  funext y
  obtain ⟨u, h, r, w, rfl⟩ : ∃ (u : Fin 1) (h : Fin 16) (r w : Fin 256), y = ix4 u h r w := ⟨y 0, y 1, y 2, y 3, eq_ix4 y⟩
  obtain rfl : u = 0 := Subsingleton.elim _ _
  show (View.canon [(⟨r0_0, k0_pay1 (iblk m c 0 t) (iblk m c 1 t) (iblk m c 2 t) (iblk m c 3 t) (iblk m c 4 t)⟩ :
      View.Piece (Elt Ideal) S1x16x256x256 .f32)] : Vec Ideal S1x16x256x256 .f32) (ix4 (0 : Fin 1) h r w)
    = result m c (((cfg0.win 5).blk t).view.emb (ix4 (0 : Fin 1) h r w))
  have hemb : ((cfg0.win 5).blk t).view.emb (ix4 (0 : Fin 1) h r w) = ix4 (sample t) h r w := by
    funext a; apply Fin.ext
    match a with
    | ⟨0, _⟩ => show win0_5.index t (0 : Fin 4) * 1 + 1 * 0 = t.val; omega
    | ⟨1, _⟩ => show win0_5.index t (1 : Fin 4) * 16 + 1 * h.val = h.val; omega
    | ⟨2, _⟩ => show win0_5.index t (2 : Fin 4) * 256 + 1 * r.val = r.val; omega
    | ⟨3, _⟩ => show win0_5.index t (3 : Fin 4) * 256 + 1 * w.val = w.val; omega
  rw [hemb]
  refine (Cert.KernelIdeal.ValueP.canon5_eq (F := Ideal) (iblk m c 0 t) (iblk m c 1 t) (iblk m c 2 t) (iblk m c 3 t) (iblk m c 4 t)
    (ix4 (0 : Fin 1) h r w)).trans ?_
  exact Cert.KernelIdeal.BlockValue.block_apply (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (sample t)
    (iblk0_apply m c t) (iblk1_eq m c t) (iblk2_apply m c t) (iblk3_eq m c t) (iblk4_apply m c t) h r w

/-- An index of the result array is in point t's block iff each coordinate is in the block's range on its axis. -/
theorem mem_blk (t : Fin cfg0.N) (i : S64x16x256x256.Idx) :
    i ∈ ((cfg0.win 5).blk t).view.set ↔ ∀ a : Fin 4, win0_5.index t a * S1x16x256x256.size a ≤ (i a).val
      ∧ (i a).val < win0_5.index t a * S1x16x256x256.size a + S1x16x256x256.size a := by
  show i ∈ ((View.whole main_v2).slice (win0_5.rect t)).set ↔ _
  rw [View.set_slice_whole, Rect.mem_set_unit]
  exact Iff.rfl

/-- Every index of the result array is in the block of the point that is its sample number. -/
theorem cover (i : S64x16x256x256.Idx) :
    ∃ t : Fin cfg0.N, (cfg0.win 5).flush t = true ∧ i ∈ ((cfg0.win 5).blk t).view.set := by
  have hi0 : (i 0).val < 64 := (i 0).isLt
  have hi1 : (i 1).val < 16 := (i 1).isLt
  have hi2 : (i 2).val < 256 := (i 2).isLt
  have hi3 : (i 3).val < 256 := (i 3).isLt
  have hlt : (i 0).val < cfg0.N := by
    have hN : grid0.N = 64 := N_0
    show (i 0).val < grid0.N
    omega
  refine ⟨⟨(i 0).val, hlt⟩, flush0_5 _, ?_⟩
  obtain ⟨-, -, -, -, e0, e1, e2, e3, -⟩ := idx_facts ⟨(i 0).val, hlt⟩
  rw [mem_blk]
  intro a
  match a with
  | ⟨0, _⟩ =>
    show win0_5.index ⟨(i 0).val, _⟩ (0 : Fin 4) * 1 ≤ (i 0).val ∧ (i 0).val < win0_5.index ⟨(i 0).val, _⟩ (0 : Fin 4) * 1 + 1
    have e0' : win0_5.index ⟨(i 0).val, hlt⟩ (0 : Fin 4) = (i 0).val := e0
    omega
  | ⟨1, _⟩ =>
    show win0_5.index ⟨(i 0).val, _⟩ (1 : Fin 4) * 16 ≤ (i 1).val ∧ (i 1).val < win0_5.index ⟨(i 0).val, _⟩ (1 : Fin 4) * 16 + 16
    omega
  | ⟨2, _⟩ =>
    show win0_5.index ⟨(i 0).val, _⟩ (2 : Fin 4) * 256 ≤ (i 2).val ∧ (i 2).val < win0_5.index ⟨(i 0).val, _⟩ (2 : Fin 4) * 256 + 256
    omega
  | ⟨3, _⟩ =>
    show win0_5.index ⟨(i 0).val, _⟩ (3 : Fin 4) * 256 ≤ (i 3).val ∧ (i 3).val < win0_5.index ⟨(i 0).val, _⟩ (3 : Fin 4) * 256 + 256
    omega

/-- The result array after the run. -/
theorem final (c : Dev nD) : (dats m 0 c).arrAt 5 cfg0.N = result m c :=
  (dats m 0 c).arrAt_eq_of_cover 5 (result m c) (fun t _ => flushed_eq m c t) cover

/-- The kernel's run: every execution ends with the result array at G of the arguments and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.ValueP.run_blocks m ρ)

end Cert.KernelIdeal.RunValue

end
-- ==== Proof.RefValue.lean ====
/-
  The reference program computes `Cert.SeGate.G`.

  Read one operation at a time, the reference's result at (b, h, r, w) is x[b, h, r, w] times a number that depends on
  (b, h) only. That number is built in stages:
    * the sum of the plane x[b, k, ·, ·] from the initial value 0, divided by 65536           — `pool x b k`
    * the product of the pooled row with W1 (a sum over k), plus b1[c], the maximum with 0        — `hidden x W1 b1 b c`
    * the product of the hidden row with W2 (a sum over c), plus b2[h]                            — `pre … b h`
    * 1 / (1 + e^(−·)) of it, spelt with a negation, an exponential, a sum and a quotient       — the logistic function
    * converted to an integer and back to a float                                                 — `gate`
  The two laws used are `mean_eq` (the quotient by 65536 is the product with 2⁻¹⁶) and the plane's sum read as a double
  sum; the rest is reading each stage at an index.
-/
import proofs.«110102_j48490180772307_2_alg».proof.Proof.Gen.ReferenceIdeal.Read
import proofs.«110102_j48490180772307_2_alg».proof.Proof.Spec
import proofs.«110102_j48490180772307_2_alg».proof.Proof.LibPlaneSum
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SeGate

variable (x0 : FVec Ideal S64x16x256x256 .f32) (x1 : FVec Ideal S4x16 .f32) (x2 : FVec Ideal S4 .f32)
  (x3 : FVec Ideal S16x4 .f32) (x4 : FVec Ideal S16 .f32)

/-- The plane's sum: from the initial value 0, every entry x[b, k, r, w]. -/
theorem planeSum_apply (b : Fin 64) (k : Fin 16) :
    val_main_v0 (F := Ideal) x0 (ix2 b k) = ∑ r : Fin 256, ∑ w : Fin 256, x0 (ix4 b k r w) := by
  unfold val_main_v0
  refine (Cert.Lib.PlaneSum.hostReduceAdd_plane x0 _ reducesTo_S64x16x256x256_S64x16_d2_3 h_S_ b k).trans ?_
  rw [val_main_cst_apply]
  show Ideal.ofBits .f32 0x00000000#32 + _ = _
  rw [Ideal.ofBits_zero_f32, zero_add]

/-- The plane's mean. -/
theorem pool_apply (b : Fin 64) (k : Fin 16) : val_main_v2 (F := Ideal) x0 (ix2 b k) = pool x0 b k := by
  rw [val_main_v2_apply, planeSum_apply, val_main_v1_apply, val_main_cst_0_apply]
  exact mean_eq _

/-- The hidden units. -/
theorem hidden_apply (b : Fin 64) (c : Fin 4) :
    val_main_v7 (F := Ideal) x0 x1 x2 (ix2 b c) = hidden x0 x1 x2 b c := by
  have el : ∀ k : Fin 16, lidx_main_v3 (ix2 b c) k = ix2 b k := fun k =>
    funext fun a => Fin.ext (by match a with | ⟨0, _⟩ => rfl | ⟨1, _⟩ => rfl)
  have er : ∀ k : Fin 16, ridx_main_v3 (ix2 b c) k = ix2 c k := fun k =>
    funext fun a => Fin.ext (by match a with | ⟨0, _⟩ => rfl | ⟨1, _⟩ => rfl)
  have eb : idx_main_v4 (idx_main_v5 (ix2 b c)) = ix1 c :=
    funext fun a => Fin.ext (by match a with | ⟨0, _⟩ => rfl)
  rw [val_main_v7_apply, val_main_v6_apply, val_main_v3_apply, val_main_v5_apply, val_main_v4_apply,
    val_main_call0_v0_apply, val_main_call0_cst_apply, eb]
  simp only [el, er, pool_apply]
  show max (_ + _) (Ideal.ofBits .f32 0x00000000#32) = _
  rw [Ideal.ofBits_zero_f32]
  rfl

/-- What the gate is taken of. -/
theorem pre_apply (b : Fin 64) (h : Fin 16) :
    val_main_v11 (F := Ideal) x0 x1 x2 x3 x4 (ix2 b h) = pre x0 x1 x2 x3 x4 b h := by
  have el : ∀ c : Fin 4, lidx_main_v8 (ix2 b h) c = ix2 b c := fun c =>
    funext fun a => Fin.ext (by match a with | ⟨0, _⟩ => rfl | ⟨1, _⟩ => rfl)
  have er : ∀ c : Fin 4, ridx_main_v8 (ix2 b h) c = ix2 h c := fun c =>
    funext fun a => Fin.ext (by match a with | ⟨0, _⟩ => rfl | ⟨1, _⟩ => rfl)
  have eb : idx_main_v9 (idx_main_v10 (ix2 b h)) = ix1 h :=
    funext fun a => Fin.ext (by match a with | ⟨0, _⟩ => rfl)
  rw [val_main_v11_apply, val_main_v8_apply, val_main_v10_apply, val_main_v9_apply, eb]
  simp only [el, er, hidden_apply]
  rfl

/-- The quotient 1 / (1 + e^(−z)) the reference spells out is the logistic function. -/
theorem logistic_apply (b : Fin 64) (h : Fin 16) :
    val_main_v17 (F := Ideal) x0 x1 x2 x3 x4 (ix2 b h) = Ideal.logistic (pre x0 x1 x2 x3 x4 b h) := by
  rw [val_main_v17_apply, val_main_v16_apply, val_main_cst_2_apply, val_main_v15_apply, val_main_v14_apply,
    val_main_cst_1_apply, val_main_v13_apply, val_main_v12_apply, pre_apply]
  show Ideal.div (Ideal.ofBits .f32 0x3F800000#32) (Ideal.ofBits .f32 0x3F800000#32 + Ideal.exp (-(pre x0 x1 x2 x3 x4 b h)))
    = Ideal.div 1 (1 + Ideal.exp (-(pre x0 x1 x2 x3 x4 b h)))
  rw [ofBits_one]

/-- The reference's result array is `G` of the arguments. -/
theorem result_eq : val_main_v22 (F := Ideal) x0 x1 x2 x3 x4 = G x0 x1 x2 x3 x4 := by
  funext i
  obtain ⟨b, h, r, w, rfl⟩ : ∃ (b : Fin 64) (h : Fin 16) (r w : Fin 256), i = ix4 b h r w := ⟨i 0, i 1, i 2, i 3, eq_ix4 i⟩
  have e : idx_main_v20 (idx_main_v21 (ix4 b h r w)) = ix2 b h :=
    funext fun a => Fin.ext (by match a with | ⟨0, _⟩ => rfl | ⟨1, _⟩ => rfl)
  rw [val_main_v22_apply, val_main_v21_apply, val_main_v20_apply, e, val_main_v19_apply, val_main_v18_apply,
    logistic_apply, G_ix4]
  rfl

end Cert.ReferenceIdeal.RefValue

end
-- ==== Proof.lean ====
/-
  A squeeze-and-excitation gate, computed in one pass by a kernel and in stages by a reference: the two are equal on the
  extended reals.

  For an input x of 64 samples × 16 channels × a 256 × 256 plane, weights W1 [4, 16], W2 [16, 4] and biases b1 [4], b2 [16],
  both programs return G[b, h, r, w] = x[b, h, r, w] · gate (pre b h) (Proof/Spec.lean), where pre b h is a two-layer
  perceptron (a cut-off at 0 between the layers) of the 16 plane means of sample b, and gate z is the integer part of the
  logistic function 1 / (1 + e^(−z)) as a float.
  * The reference does this with whole-array operations: a sum over both plane axes divided by 65536, two matrix products,
    and the logistic function spelt with a negation, an exponential, a sum and a quotient (Proof/RefValue.lean).
  * The kernel does one sample per grid point: it sums the planes a row at a time, multiplies by 2⁻¹⁶, forms the two small
    matrix products as repeat-multiply-add on the vector unit, and applies the logistic function as one operation
    (Proof/KernelValue.lean for one block; Proof/KernelRun.lean for the 64 blocks making up the array).
  Two laws join the sides: a quotient by 65536 is the product with 2⁻¹⁶ on every extended real, and a finite sum does not
  depend on its grouping. Neither needs a finite input, so the precondition is never opened. On the extended reals the
  logistic operation is by definition the quotient the reference spells, and the integer conversions are the same
  operations on both sides.
  The three frame claims are the generated frame runs; the idealization rewrote nothing, so `preserves` is `True`.
-/
import proofs.«110102_j48490180772307_2_alg».proof.Defs
import proofs.«110102_j48490180772307_2_alg».proof.Proof.Gen.Kernel
import proofs.«110102_j48490180772307_2_alg».proof.Proof.Gen.Kernel.Frame
import proofs.«110102_j48490180772307_2_alg».proof.Proof.Gen.KernelIdeal
import proofs.«110102_j48490180772307_2_alg».proof.Proof.Gen.KernelIdeal.Frame
import proofs.«110102_j48490180772307_2_alg».proof.Proof.Gen.ReferenceIdeal
import proofs.«110102_j48490180772307_2_alg».proof.Proof.Gen.ReferenceIdeal.Run
import proofs.«110102_j48490180772307_2_alg».proof.Proof.Gen.ReferenceIdeal.Read
import proofs.«110102_j48490180772307_2_alg».proof.Proof.Gen.Pre_finite_inputs
import proofs.«110102_j48490180772307_2_alg».proof.Proof.KernelRun
import proofs.«110102_j48490180772307_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at `G` of them (its 64 blocks are `G` on the 64 samples), and
    the reference's result is `G` of them stage by stage. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
